-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x64 : Shape := ⟨3, ![1, 2048, 64]⟩
abbrev S1x3x131072x64 : Shape := ⟨4, ![1, 3, 131072, 64]⟩
abbrev S131072 : Shape := ⟨1, ![131072]⟩
abbrev S1x64 : Shape := ⟨2, ![1, 64]⟩
abbrev S1 : Shape := ⟨1, ![1]⟩
abbrev S_ : Shape := ⟨0, ![]⟩

class Facts : Prop where
  bcast_S_S1x2048x64 : S_.BroadcastsInDim S1x2048x64 (![] : Fin 0 → Fin S1x2048x64.rank)
  reducesTo_S1x2048x64_S_d0_1_2 : S1x2048x64.ReducesTo [0, 1, 2] S_
  h_S_ : 0 < S_.numel
  bcast_S_S1x3x131072x64 : S_.BroadcastsInDim S1x3x131072x64 (![] : Fin 0 → Fin S1x3x131072x64.rank)
  reducesTo_S1x3x131072x64_S_d0_1_2_3 : S1x3x131072x64.ReducesTo [0, 1, 2, 3] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1x2048x64 .f32) (main_arg1 : FVec F S1x3x131072x64 .f32) (main_arg2 : IVec S131072 32) (main_arg3 : IVec S131072 32) (main_arg4 : FVec F S1x64 .f32) (main_arg5 : FVec F S1 .f32) : IVec S_ 1 :=
  let main_v0 : FVec F S1x2048x64 .f32 := Host.absf main_arg0
  let main_cst : FVec F S_ .f32 := constant S_ .f32 0x7F800000#32
  let main_v1 : FVec F S1x2048x64 .f32 := broadcastInDim S1x2048x64 ![] bcast_S_S1x2048x64 main_cst
  let main_v2 : IVec S1x2048x64 1 := cmpf .olt main_v0 main_v1
  let main_c : IVec S_ 1 := constantI S_ 1 1#1
  let main_v3 : IVec S_ 1 := (fun x v => Host.reduce IntOp.andi x v reducesTo_S1x2048x64_S_d0_1_2 h_S_) main_v2 main_c
  let main_v4 : FVec F S1x3x131072x64 .f32 := Host.absf main_arg1
  let main_cst_0 : FVec F S_ .f32 := constant S_ .f32 0x7F800000#32
  let main_v5 : FVec F S1x3x131072x64 .f32 := broadcastInDim S1x3x131072x64 ![] bcast_S_S1x3x131072x64 main_cst_0
  let main_v6 : IVec S1x3x131072x64 1 := cmpf .olt main_v4 main_v5
  let main_c_1 : IVec S_ 1 := constantI S_ 1 1#1
  let main_v7 : IVec S_ 1 := (fun x v => Host.reduce IntOp.andi x v reducesTo_S1x3x131072x64_S_d0_1_2_3 h_S_) main_v6 main_c_1
  let main_v8 : IVec S_ 1 := andi main_v3 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1x2048x64 : Shape := ⟨3, ![1, 2048, 64]⟩
abbrev S1x3x131072x64 : Shape := ⟨4, ![1, 3, 131072, 64]⟩
abbrev S131072 : Shape := ⟨1, ![131072]⟩
abbrev S1x64 : Shape := ⟨2, ![1, 64]⟩
abbrev S1 : Shape := ⟨1, ![1]⟩
abbrev S1x1x64 : Shape := ⟨3, ![1, 1, 64]⟩
abbrev S3x131072x64 : Shape := ⟨3, ![3, 131072, 64]⟩
abbrev S3x131072x1 : Shape := ⟨3, ![3, 131072, 1]⟩
abbrev S3x2048x64 : Shape := ⟨3, ![3, 2048, 64]⟩
abbrev S3x2048x1 : Shape := ⟨3, ![3, 2048, 1]⟩
abbrev S3x2048 : Shape := ⟨2, ![3, 2048]⟩
abbrev S3x131072 : Shape := ⟨2, ![3, 131072]⟩
abbrev S131072x3 : Shape := ⟨2, ![131072, 3]⟩
abbrev S_ : Shape := ⟨0, ![]⟩
abbrev S2048x3 : Shape := ⟨2, ![2048, 3]⟩
abbrev S131072x1 : Shape := ⟨2, ![131072, 1]⟩
abbrev S1x3x2048 : Shape := ⟨3, ![1, 3, 2048]⟩

abbrev nBuf : Space → Nat
  | .hbm => 17
  | .vmem => 9
  | .smem => 0
  | _ => 0

abbrev bufTy : (tb : Table) → Fin (tcTables nBuf tb) → BufTy
  | .hbm, ⟨0, _⟩ => ⟨S1x2048x64, .f32⟩
  | .hbm, ⟨1, _⟩ => ⟨S1x3x131072x64, .f32⟩
  | .hbm, ⟨2, _⟩ => ⟨S131072, .i32⟩
  | .hbm, ⟨3, _⟩ => ⟨S131072, .i32⟩
  | .hbm, ⟨4, _⟩ => ⟨S1x64, .f32⟩
  | .hbm, ⟨5, _⟩ => ⟨S1, .f32⟩
  | .hbm, ⟨6, _⟩ => ⟨S1, .f32⟩
  | .hbm, ⟨7, _⟩ => ⟨S3x131072x64, .f32⟩
  | .hbm, ⟨8, _⟩ => ⟨S3x131072x1, .f32⟩
  | .hbm, ⟨9, _⟩ => ⟨S3x131072, .f32⟩
  | .hbm, ⟨10, _⟩ => ⟨S131072x3, .f32⟩
  | .hbm, ⟨11, _⟩ => ⟨S_, .f32⟩
  | .hbm, ⟨12, _⟩ => ⟨S2048x3, .f32⟩
  | .hbm, ⟨13, _⟩ => ⟨S131072x1, .i32⟩
  | .hbm, ⟨14, _⟩ => ⟨S2048x3, .f32⟩
  | .hbm, ⟨15, _⟩ => ⟨S3x2048, .f32⟩
  | .hbm, ⟨16, _⟩ => ⟨S1x3x2048, .f32⟩
  | .local _ .vmem, ⟨0, _⟩ => ⟨S1x2048x64, .f32⟩
  | .local _ .vmem, ⟨1, _⟩ => ⟨S1x64, .f32⟩
  | .local _ .vmem, ⟨2, _⟩ => ⟨S1, .f32⟩
  | .local _ .vmem, ⟨3, _⟩ => ⟨S1, .f32⟩
  | .local _ .vmem, ⟨4, _⟩ => ⟨S3x2048x64, .f32⟩
  | .local _ .vmem, ⟨5, _⟩ => ⟨S3x2048x64, .f32⟩
  | .local _ .vmem, ⟨6, _⟩ => ⟨S1x64, .f32⟩
  | .local _ .vmem, ⟨7, _⟩ => ⟨S3x2048x1, .f32⟩
  | .local _ .vmem, ⟨8, _⟩ => ⟨S3x2048x1, .f32⟩
  | _, _ => ⟨S1x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S1x2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S3x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3x2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  inb_S1x64_S1x64_0_0 : ∀ a, (![0, 0] : Fin 2 → Nat) a + S1x64.size a ≤ S1x64.size a
  h_S1x64 : 0 < S1x64.numel
  shapeCasts_S1x64_S1x1x64 : S1x64.ShapeCasts S1x1x64
  broadcasts_S1x1x64_S1x2048x64 : S1x1x64.Broadcasts S1x2048x64
  reduces_S1x2048x64_S1x64 : S1x2048x64.Reduces [1] S1x64
  reduces_S1x64_S1 : S1x64.Reduces [1] S1
  inb_S1_S1_0 : ∀ a, (![0] : Fin 1 → Nat) a + S1.size a ≤ S1.size a
  h_S1 : 0 < S1.numel
  shapeCasts_S1x3x131072x64_S3x131072x64 : S1x3x131072x64.ShapeCasts S3x131072x64
  inb_S3x2048x64_S3x2048x64_0_0_0 : ∀ a, (![0, 0, 0] : Fin 3 → Nat) a + S3x2048x64.size a ≤ S3x2048x64.size a
  h_S3x2048x64 : 0 < S3x2048x64.numel
  shapeCasts_S3x2048x64_S3x2048x64 : S3x2048x64.ShapeCasts S3x2048x64
  broadcasts_S1x1x64_S3x2048x64 : S1x1x64.Broadcasts S3x2048x64
  reduces_S3x2048x64_S3x2048 : S3x2048x64.Reduces [2] S3x2048
  shapeCasts_S3x2048_S3x2048x1 : S3x2048.ShapeCasts S3x2048x1
  inb_S3x2048x1_S3x2048x1_0_0_0 : ∀ a, (![0, 0, 0] : Fin 3 → Nat) a + S3x2048x1.size a ≤ S3x2048x1.size a
  h_S3x2048x1 : 0 < S3x2048x1.numel
  shapeCasts_S3x131072x1_S3x131072 : S3x131072x1.ShapeCasts S3x131072
  transposes_S3x131072_S131072x3_1_0 : S3x131072.Transposes [1, 0] S131072x3
  bcast_S_S2048x3 : S_.BroadcastsInDim S2048x3 (![] : Fin 0 → Fin S2048x3.rank)
  bcast_S131072_S131072x1_0 : S131072.BroadcastsInDim S131072x1 (![0] : Fin 1 → Fin S131072x1.rank)
  transposes_S2048x3_S3x2048_1_0 : S2048x3.Transposes [1, 0] S3x2048
  bcast_S3x2048_S1x3x2048_1_2 : S3x2048.BroadcastsInDim S1x3x2048 (![1, 2] : Fin 2 → Fin S1x3x2048.rank)
  scatter_S2048x3_S131072x1_S131072x3_1_0_0_1_wf : ScatterDims.WF S2048x3 S131072x1 S131072x3 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S1x2048x64.size a
  hwx0_0 : ∀ i : grid0.Coords, EltTy.bits .f32 = 32 ∨ (Rect.block (s := S1x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x2048x64.size a ≤ S3x131072x64.size a
  hwx1_0 : ∀ i : grid1.Coords, EltTy.bits .f32 = 32 ∨ (Rect.block (s := S3x131072x64) S3x2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x2048x1.size a ≤ S3x131072x1.size a
  hwx1_2 : ∀ i : grid1.Coords, EltTy.bits .f32 = 32 ∨ (Rect.block (s := S3x131072x1) S3x2048x1.size (cc1_transform_2 i) (hinb1_2 i)).WholeWords (EltTy.packing .f32)

variable [Facts₀]

def scatter_S2048x3_S131072x1_S131072x3_1_0_0_1 : ScatterDims S2048x3 S131072x1 S131072x3 where
  updateWindowDims := [1]
  insertedWindowDims := [0]
  scatterDimsToOperandDims := [0]
  indexVectorDim := 1
  wf := scatter_S2048x3_S131072x1_S131072x3_1_0_0_1_wf

abbrev win0_0 : Pipeline.Window sig grid0 :=
  Pipeline.Window.ofSpec (Memref.whole main_arg0) S1x2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S3x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S3x2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x2048x64 : Shape := ⟨3, ![1, 2048, 64]⟩
abbrev S1x3x131072x64 : Shape := ⟨4, ![1, 3, 131072, 64]⟩
abbrev S131072 : Shape := ⟨1, ![131072]⟩
abbrev S1x64 : Shape := ⟨2, ![1, 64]⟩
abbrev S1 : Shape := ⟨1, ![1]⟩
abbrev S1x1x64 : Shape := ⟨3, ![1, 1, 64]⟩
abbrev S_ : Shape := ⟨0, ![]⟩
abbrev S1x1x1x64 : Shape := ⟨4, ![1, 1, 1, 64]⟩
abbrev S1x3x131072 : Shape := ⟨3, ![1, 3, 131072]⟩
abbrev S3x131072 : Shape := ⟨2, ![3, 131072]⟩
abbrev S131072x3 : Shape := ⟨2, ![131072, 3]⟩
abbrev S2048x3 : Shape := ⟨2, ![2048, 3]⟩
abbrev S131072x1 : Shape := ⟨2, ![131072, 1]⟩
abbrev S3x2048 : Shape := ⟨2, ![3, 2048]⟩
abbrev S1x3x2048 : Shape := ⟨3, ![1, 3, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1x2048x64, .f32⟩
  | .hbm, ⟨1, _⟩ => ⟨S1x3x131072x64, .f32⟩
  | .hbm, ⟨2, _⟩ => ⟨S131072, .i32⟩
  | .hbm, ⟨3, _⟩ => ⟨S131072, .i32⟩
  | .hbm, ⟨4, _⟩ => ⟨S1x64, .f32⟩
  | .hbm, ⟨5, _⟩ => ⟨S1, .f32⟩
  | .hbm, ⟨6, _⟩ => ⟨S1x1x64, .f32⟩
  | .hbm, ⟨7, _⟩ => ⟨S1x2048x64, .f32⟩
  | .hbm, ⟨8, _⟩ => ⟨S1x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S1x1x1x64, .f32⟩
  | .hbm, ⟨16, _⟩ => ⟨S1x3x131072x64, .f32⟩
  | .hbm, ⟨17, _⟩ => ⟨S1x3x131072x64, .f32⟩
  | .hbm, ⟨18, _⟩ => ⟨S_, .f32⟩
  | .hbm, ⟨19, _⟩ => ⟨S1x3x131072, .f32⟩
  | .hbm, ⟨20, _⟩ => ⟨S1x3x131072, .f32⟩
  | .hbm, ⟨21, _⟩ => ⟨S3x131072, .f32⟩
  | .hbm, ⟨22, _⟩ => ⟨S131072x3, .f32⟩
  | .hbm, ⟨23, _⟩ => ⟨S_, .f32⟩
  | .hbm, ⟨24, _⟩ => ⟨S2048x3, .f32⟩
  | .hbm, ⟨25, _⟩ => ⟨S131072x1, .i32⟩
  | .hbm, ⟨26, _⟩ => ⟨S2048x3, .f32⟩
  | .hbm, ⟨27, _⟩ => ⟨S3x2048, .f32⟩
  | .hbm, ⟨28, _⟩ => ⟨S1x3x2048, .f32⟩
  | _, _ => ⟨S1x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S1x64_S1x1x64_1_2 : S1x64.BroadcastsInDim S1x1x64 (![1, 2] : Fin 2 → Fin S1x1x64.rank)
  bcast_S1x1x64_S1x2048x64_0_1_2 : S1x1x64.BroadcastsInDim S1x2048x64 (![0, 1, 2] : Fin 3 → Fin S1x2048x64.rank)
  reducesTo_S1x2048x64_S_d0_1_2 : S1x2048x64.ReducesTo [0, 1, 2] S_
  h_S_ : 0 < S_.numel
  bcast_S_S1 : S_.BroadcastsInDim S1 (![] : Fin 0 → Fin S1.rank)
  bcast_S1x64_S1x1x1x64_2_3 : S1x64.BroadcastsInDim S1x1x1x64 (![2, 3] : Fin 2 → Fin S1x1x1x64.rank)
  bcast_S1x1x1x64_S1x3x131072x64_0_1_2_3 : S1x1x1x64.BroadcastsInDim S1x3x131072x64 (![0, 1, 2, 3] : Fin 4 → Fin S1x3x131072x64.rank)
  reducesTo_S1x3x131072x64_S1x3x131072_d3 : S1x3x131072x64.ReducesTo [3] S1x3x131072
  shapeCasts_S1x3x131072_S3x131072 : S1x3x131072.ShapeCasts S3x131072
  transposes_S3x131072_S131072x3_1_0 : S3x131072.Transposes [1, 0] S131072x3
  bcast_S_S2048x3 : S_.BroadcastsInDim S2048x3 (![] : Fin 0 → Fin S2048x3.rank)
  bcast_S131072_S131072x1_0 : S131072.BroadcastsInDim S131072x1 (![0] : Fin 1 → Fin S131072x1.rank)
  transposes_S2048x3_S3x2048_1_0 : S2048x3.Transposes [1, 0] S3x2048
  bcast_S3x2048_S1x3x2048_1_2 : S3x2048.BroadcastsInDim S1x3x2048 (![1, 2] : Fin 2 → Fin S1x3x2048.rank)
  scatter_S2048x3_S131072x1_S131072x3_1_0_0_1_wf : ScatterDims.WF S2048x3 S131072x1 S131072x3 [1] [0] [0] 1

variable [Facts₀]

def scatter_S2048x3_S131072x1_S131072x3_1_0_0_1 : ScatterDims S2048x3 S131072x1 S131072x3 where
  updateWindowDims := [1]
  insertedWindowDims := [0]
  scatterDimsToOperandDims := [0]
  indexVectorDim := 1
  wf := scatter_S2048x3_S131072x1_S131072x3_1_0_0_1_wf

class Facts : Prop extends Facts₀ where

variable [Facts]
-- ==== Proof.Spec.lean ====
/-
  What the two programs compute, as plain formulas on the extended reals, over literal shapes.

  * The energy: every descriptor of every atom weighted by its weight, summed over all atoms and descriptors,
    divided by the number of atoms (the word `0x45000000`, i.e. 2048), plus the bias.
  * The pair forces: for each Cartesian component and each pair, minus the weighted sum of the pair's
    descriptor derivatives — written `0 - Σ`, which on the extended reals is `-Σ`.

  The two programs differ only in how they arrange the energy's sum: one sums the atoms first and then the
  descriptors, the other sums over every index of the array at once.  Addition of extended reals is commutative
  and associative, so the two arrangements agree (`sum_all_eq`); no finiteness is used.
-/
import Idealize.ShloMosaic.PureOps.Ideal
import Idealize.ShloMosaic.Lib.ValueIdx

noncomputable section

namespace Cert.Spec

open Idealize.ShloMosaic Idealize.ShloMosaic.ValueIdx
open scoped BigOperators

/-- The energy as one number (stored in a one-element list): the descriptors' weighted sum, atoms summed first,
    over the atom count, plus the bias. -/
def energy (x : (⟨3, ![1, 2048, 64]⟩ : Shape).Idx → EReal) (w : (⟨2, ![1, 64]⟩ : Shape).Idx → EReal)
    (b : (⟨1, ![1]⟩ : Shape).Idx → EReal) : (⟨1, ![1]⟩ : Shape).Idx → EReal :=
  fun _ => Ideal.div (∑ d : Fin 64, ∑ n : Fin 2048, x (ix3 0 n d) * w (ix2 0 d)) (Ideal.ofBits .f32 0x45000000#32) + b (ix1 0)

/-- One pair's force along one Cartesian component: zero minus the weighted sum of its descriptor derivatives. -/
def pairForce (x : (⟨3, ![3, 131072, 64]⟩ : Shape).Idx → EReal) (w : (⟨2, ![1, 64]⟩ : Shape).Idx → EReal)
    (c : Fin 3) (p : Fin 131072) : EReal :=
  0 - ∑ d : Fin 64, x (ix3 c p d) * w (ix2 0 d)

/-- The pair forces laid out component × pair × 1, as the second launch leaves them. -/
def force (x : (⟨3, ![3, 131072, 64]⟩ : Shape).Idx → EReal) (w : (⟨2, ![1, 64]⟩ : Shape).Idx → EReal) :
    (⟨3, ![3, 131072, 1]⟩ : Shape).Idx → EReal :=
  fun i => pairForce x w (i 0) (i 1)

/-- An index of a three-axis array is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over every index of a 1 × N × D array is the sum over the descriptors of the sums over the atoms. -/
theorem sum_all_eq {M : Type*} [AddCommMonoid M] {N D : Nat} (f : (⟨3, ![1, N, D]⟩ : Shape).Idx → M) :
    ∑ i, f i = ∑ d : Fin D, ∑ n : Fin N, f (ix3 0 n d) := by
  rw [sum_idx3, Fin.sum_univ_one, Finset.sum_comm]

end Cert.Spec

end
-- ==== Proof.KernelRun.lean ====
/-
  The idealized kernel's run, with every buffer named at the end.

  The program is two launches among stretches of host operations.  Its run is a chain of four segments; after the
  last one every buffer that outlives a launch holds the contents the chain computes for it (`Gen.W4`: the launch
  memory, pushed through the first launch's write-backs, one reshape, the second launch's write-backs, and the
  eight closing host operations).  `run_all` states that of every such buffer; `run_results` restates it for the
  two result buffers and the six argument buffers (which no segment writes, so they end as launched).
-/
import proofs.«130377_j1975684956439_2_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and in every final state each buffer that outlives
    the launches holds the chain's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, read at the two result buffers and the six argument buffers. -/
theorem run_results : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v0 (by decide)),
       h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)
    (run_all m ρ)

end Cert.KernelIdeal.Boundary

end
-- ==== Proof.Boundary.lean ====
/-
  What the chain of segments leaves in the two result buffers, and what the second launch finds on entry.

  * The energy buffer is the first launch's output array: nothing after that launch writes it.
  * The force buffer is the eight closing host operations applied to the second launch's output array and to
    the neighbour-index list (an argument, which nothing writes): drop the trailing unit axis, transpose to
    pair × component, scatter-add the rows into a zero atom × component array at the rows the index list names,
    transpose back, and add a leading unit axis.  `closing` names those operations as one function.
  * The second launch reads the derivative array with its leading unit axis dropped (the one host operation
    between the launches) and the weight list as launched.
-/
import proofs.«130377_j1975684956439_2_alg».proof.Proof.Gen.KernelIdeal.Frame
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- The pair forces as the scatter takes them: the trailing unit axis dropped, then pair × component. -/
def updates (u : (⟨S3x131072x1, .f32⟩ : BufTy).Contents (Elt F)) : (⟨S131072x3, .f32⟩ : BufTy).Contents (Elt F) :=
  transpose S131072x3 [1, 0] (shapeCast S3x131072 u shapeCasts_S3x131072x1_S3x131072) transposes_S3x131072_S131072x3_1_0

/-- The scatter-add of pair × component rows onto the atoms the index list names, from zero, then component × atom
    with a leading unit axis. -/
def scatterOnto (idx : (⟨S131072, .i32⟩ : BufTy).Contents (Elt F)) (upd : (⟨S131072x3, .f32⟩ : BufTy).Contents (Elt F)) :
    (⟨S1x3x2048, .f32⟩ : BufTy).Contents (Elt F) :=
  broadcastInDim S1x3x2048 ![1, 2] bcast_S3x2048_S1x3x2048_1_2
    (transpose S3x2048 [1, 0]
      (Host.scatterAdd scatter_S2048x3_S131072x1_S131072x3_1_0_0_1
        (broadcastInDim S2048x3 ![] bcast_S_S2048x3 (constant S_ .f32 0x00000000#32))
        (broadcastInDim S131072x1 ![0] bcast_S131072_S131072x1_0 idx) upd)
      transposes_S2048x3_S3x2048_1_0)

/-- The eight closing host operations, as one function of the index list and the second launch's output. -/
def closing (idx : (⟨S131072, .i32⟩ : BufTy).Contents (Elt F)) (u : (⟨S3x131072x1, .f32⟩ : BufTy).Contents (Elt F)) :
    (⟨S1x3x2048, .f32⟩ : BufTy).Contents (Elt F) :=
  scatterOnto idx (updates u)

variable (m : (ℓ : Loc nD τ sig) → Buf (Elt F) ℓ) (ρ : Dev nD → PrngReg)

/-- The energy buffer ends at the first launch's output array. -/
theorem end_v0 (c : Dev nD) : W4 m ρ c (Proc.devRef .tc main_v0) = (dat0 (V0 m ρ) c).arrAt 3 cfg0.N :=
  calc W4 m ρ c (Proc.devRef .tc main_v0)
    _ = W3 m ρ c (Proc.devRef .tc main_v0) := StableHlo.after_of_forall_not_mem (b := Proc.devRef .tc main_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0) := W3_of_ne m ρ c main_v0 (by decide)
    _ = W1 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 3 cfg0.N := W1_arr m ρ c 3

/-- The index list is as launched when the closing operations read it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

/-- The force buffer ends at the closing operations of the index list and the second launch's output array. -/
theorem end_v9 (c : Dev nD) :
    W4 m ρ c (Proc.devRef .tc main_v9) = closing (m ((c : Thread nD τ).loc main_arg3)) ((dat1 (V2 m ρ) c).arrAt 2 cfg1.N) := by
  have h : W4 m ρ c (Proc.devRef .tc main_v9)
      = closing (W3 m ρ c (Proc.devRef .tc main_arg3)) (W3 m ρ c (Proc.devRef .tc main_v2)) := by
    show StableHlo.after hostOps2 (W3 m ρ c) (Proc.devRef .tc main_v9) = _
    after_results
    rfl
  rw [h, W3_main_arg3 m ρ c, W3_arr m ρ c 2]

/-- The second launch reads the derivative array with its leading unit axis dropped. -/
theorem entry1_v1 (c : Dev nD) :
    V2 m ρ c main_v1 = shapeCast S3x131072x64 (m ((c : Thread nD τ).loc main_arg1)) shapeCasts_S1x3x131072x64_S3x131072x64 := by
  have h : V2 m ρ c main_v1 = shapeCast S3x131072x64 (W1 m ρ c (Proc.devRef .tc main_arg1)) shapeCasts_S1x3x131072x64_S3x131072x64 := by
    show StableHlo.after hostOps1 (W1 m ρ c) (Proc.devRef .tc main_v1) = _
    after_results
    rfl
  rw [h, W1_of_ne m ρ c main_arg1 (by decide)]

/-- The second launch reads the weight list as launched. -/
theorem entry1_arg4 (c : Dev nD) : V2 m ρ c main_arg4 = m ((c : Thread nD τ).loc main_arg4) :=
  calc V2 m ρ c main_arg4
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := (W1_arr m ρ c 1).trans (((dat0 (V0 m ρ) c).arrAt_in 1 rfl _).trans (A_eq0 (V0 m ρ) c 1))
    _ = m ((c : Thread nD τ).loc main_arg4) := rfl

end Cert.KernelIdeal.Boundary

end
-- ==== Proof.RefBridge.lean ====
/-
  The reference's stages are the specification's formulas.

  * The reference's energy (the product of the descriptors with the weights spread over the atoms, summed over
    every index at once from zero, divided by 2048, plus the bias) is `Spec.energy`: the sum over every index of a
    1 × 2048 × 64 array is the sum over the descriptors of the sums over the atoms, and `0 + s = s`.
  * The reference's scatter updates (minus the weighted sum over the descriptors, the leading unit axis dropped,
    transposed to pair × component) are the kernel's pair forces `Spec.force` — computed on the derivative array
    with its leading unit axis dropped — with the trailing unit axis dropped and transposed the same way:
    at (pair p, component c) both read the derivatives at (0, c, p, d), and `0 - s = -(0 + s)`.
-/
import proofs.«130377_j1975684956439_2_alg».proof.Proof.Boundary
import proofs.«130377_j1975684956439_2_alg».proof.Proof.Spec
import proofs.«130377_j1975684956439_2_alg».proof.Proof.Gen.ReferenceIdeal.Read
import Idealize.ShloMosaic.Lib.ValueLayout
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx
open Cert.ReferenceIdeal (Read.val_main_v6)
open scoped BigOperators

/-- The reference's energy stage is the specification's energy. -/
theorem energy_eq (x0 : (⟨3, ![1, 2048, 64]⟩ : Shape).Idx → EReal) (x4 : (⟨2, ![1, 64]⟩ : Shape).Idx → EReal)
    (x5 : (⟨1, ![1]⟩ : Shape).Idx → EReal) :
    Cert.ReferenceIdeal.Read.val_main_v6 (F := Ideal) x0 x4 x5 = Cert.Spec.energy x0 x4 x5 := by
  funext i
  have h0 : (i 0).val = 0 := by have h : (i 0).val < 1 := (i 0).isLt; omega
  have hi : i = ix1 (0 : Fin 1) := (eq_ix1 i).trans (congrArg ix1 (Fin.ext h0))
  have hw : ∀ (n : Fin 2048) (d : Fin 64),
      Cert.ReferenceIdeal.Read.idx_main_v0 (Cert.ReferenceIdeal.Read.idx_main_v1 (ix3 (0 : Fin 1) n d)) = ix2 (0 : Fin 1) d :=
    fun n d => funext fun a => Fin.ext (by match a with | ⟨0, _⟩ => rfl | ⟨1, _⟩ => rfl)
  rw [Cert.ReferenceIdeal.Read.val_main_v6_apply, Cert.ReferenceIdeal.Read.val_main_v5_apply,
    Cert.ReferenceIdeal.Read.val_main_v4_apply, Cert.ReferenceIdeal.Read.val_main_v3_apply, Cert.Spec.sum_all_eq]
  simp only [Cert.ReferenceIdeal.Read.val_main_v2_apply, Cert.ReferenceIdeal.Read.val_main_v1_apply,
    Cert.ReferenceIdeal.Read.val_main_v0_apply, hw, Cert.ReferenceIdeal.Read.val_main_cst_apply,
    Cert.ReferenceIdeal.Read.val_main_cst_0_apply, Ideal.ofBits_def, Ideal.hostDivf_def, Ideal.addf_def, Ideal.mulf_def,
    Ideal.ofBits_zero_f32, zero_add]
  rw [hi]
  rfl

/-- The kernel's scatter updates at (pair, component) read the second launch's output at (component, pair, 0). -/
theorem updates_apply (u : (⟨3, ![3, 131072, 1]⟩ : Shape).Idx → EReal) (p : Fin 131072) (c : Fin 3) :
    Cert.KernelIdeal.Boundary.updates (F := Ideal) u (ix2 p c) = u (ix3 c p (0 : Fin 1)) := by
  unfold Cert.KernelIdeal.Boundary.updates
  refine (transpose_ix2_apply _ _ p c).trans ?_
  exact shapeCast_apply u _ (ix2 c p) (ix3 c p (0 : Fin 1)) (by
    rw [Shape.rowMajor_val_three, Shape.rowMajor_val_two]
    show (c.val * 131072 + p.val) * 1 + 0 = c.val * 131072 + p.val
    omega)

/-- The kernel's scatter updates, over the derivative array with its leading unit axis dropped, are the
    reference's. -/
theorem updates_force_eq (x1 : (⟨4, ![1, 3, 131072, 64]⟩ : Shape).Idx → EReal) (x4 : (⟨2, ![1, 64]⟩ : Shape).Idx → EReal) :
    Cert.KernelIdeal.Boundary.updates (F := Ideal)
        (Cert.Spec.force (shapeCast Cert.KernelIdeal.S3x131072x64 x1 Cert.KernelIdeal.Facts₀.shapeCasts_S1x3x131072x64_S3x131072x64) x4)
      = Cert.ReferenceIdeal.Read.val_main_v13 (F := Ideal) x1 x4 := by
  funext i
  obtain ⟨p, c, rfl⟩ : ∃ (p : Fin 131072) (c : Fin 3), i = ix2 p c := ⟨i 0, i 1, eq_ix2 i⟩
  have hp : p.val < 131072 := p.isLt
  have hc : c.val < 3 := c.isLt
  have hJ : ∀ k : Fin 64, Cert.ReferenceIdeal.Read.idx_main_v10
      (Cert.ReferenceIdeal.Read.idx_main_v12 (Cert.ReferenceIdeal.Read.idx_main_v13 (ix2 p c))) k = ix4 (0 : Fin 1) c p k :=
    fun k => funext fun a => Fin.ext (by
      match a with
      | ⟨0, _⟩ => rfl
      | ⟨1, _⟩ => show (c.val * 131072 + p.val) / 131072 % 3 = c.val; omega
      | ⟨2, _⟩ => show (c.val * 131072 + p.val) % 131072 = p.val; omega
      | ⟨3, _⟩ => rfl)
  have hw : ∀ k : Fin 64, Cert.ReferenceIdeal.Read.idx_main_v7 (Cert.ReferenceIdeal.Read.idx_main_v8 (ix4 (0 : Fin 1) c p k)) = ix2 (0 : Fin 1) k :=
    fun k => funext fun a => Fin.ext (by match a with | ⟨0, _⟩ => rfl | ⟨1, _⟩ => rfl)
  rw [updates_apply]
  show Cert.Spec.pairForce _ x4 c p = _
  unfold Cert.Spec.pairForce
  rw [Cert.ReferenceIdeal.Read.val_main_v13_apply, Cert.ReferenceIdeal.Read.val_main_v12_apply,
    Cert.ReferenceIdeal.Read.val_main_v11_apply, Cert.ReferenceIdeal.Read.val_main_v10_apply]
  simp only [Cert.ReferenceIdeal.Read.val_main_v9_apply, Cert.ReferenceIdeal.Read.val_main_v8_apply,
    Cert.ReferenceIdeal.Read.val_main_v7_apply, Cert.ReferenceIdeal.Read.val_main_cst_1_apply, hJ, hw,
    shapeCast_1abc_abc_apply, Ideal.ofBits_def, Ideal.hostNegf_def, Ideal.negf_def, Ideal.mulf_def,
    Ideal.ofBits_zero_f32, zero_add, zero_sub]

/-- The closing operations applied to the reference's updates are the reference's last stage: the two programs
    close with the same scatter-add from zero, the same transpose and the same added unit axis. -/
theorem scatterOnto_eq (x1 : (⟨Cert.ReferenceIdeal.S1x3x131072x64, .f32⟩ : BufTy).Contents (Elt Ideal))
    (x3 : (⟨Cert.ReferenceIdeal.S131072, .i32⟩ : BufTy).Contents (Elt Ideal))
    (x4 : (⟨Cert.ReferenceIdeal.S1x64, .f32⟩ : BufTy).Contents (Elt Ideal)) :
    Cert.KernelIdeal.Boundary.scatterOnto (F := Ideal) x3 (Cert.ReferenceIdeal.Read.val_main_v13 (F := Ideal) x1 x4)
      = Cert.ReferenceIdeal.Read.val_main_v18 (F := Ideal) x1 x3 x4 := rfl

end Cert.Bridge

end
-- ==== Proof.EnergyValue.lean ====
/-
  The first launch's result, as a formula of the argument arrays.

  The launch has one grid point, and at that point every window's block is its whole array: the descriptors
  x : [1, 2048, 64], the weights w : [1, 64], the bias b : [1], and the one-element result.  The body gives the
  weight row a unit atom axis, repeats it over the 2048 atoms, multiplies it into the descriptors, sums over the
  atoms, then over the 64 descriptors, divides by the constant whose word is 0x45000000 (that is 2048) and adds
  the bias.  So the result array ends holding

      (Σ_d Σ_n x[0, n, d] · w[0, d]) / 2048 + b[0],

  which is `Cert.Spec.energy` of the three arrays.  Three steps: the body's value at the result's one index;
  what the one grid point writes back, with every input block read as its whole array through zero offsets; and
  the cover (the one block is the whole result), which turns the write-back into the final array.
-/
import proofs.«130377_j1975684956439_2_alg».proof.Proof.Gen.KernelIdeal.Frame
import proofs.«130377_j1975684956439_2_alg».proof.Proof.Spec
import Idealize.ShloMosaic.Lib.Pipeline.Value
import Idealize.ShloMosaic.Lib.ValueLayout
import Idealize.ShloMosaic.PureOps.Ideal.Laws
noncomputable section
namespace Cert.KernelIdeal.EnergyValue
open Cert.KernelIdeal Cert.KernelIdeal.Gen Idealize.ShloMosaic Idealize.ShloMosaic.TcCoe Idealize.SL.Sem
open Idealize.ShloMosaic.Pipeline (Dat)

/-! ## The body's value at the result's one index -/

section Payload
open Idealize.ShloMosaic.ValueIdx
open scoped BigOperators

/-- The sum over the descriptor axis of a one-row table, at its one entry, is the sum of the row's 64 entries
    (a sum over one axis carries no initial term; the inserted index (0, d) has the coordinates it names). -/
theorem sum_row (v : FVec Ideal S1x64 .f32) :
    multiReduction (F := Ideal) .add [1] S1 v 0x00000000#32 reduces_S1x64_S1 (.inl rfl) rfl (ix1 0)
      = ∑ d : Fin 64, v (ix2 0 d) := by
  refine (Ideal.multiReduction_add_single v 0x00000000#32 reduces_S1x64_S1 (.inl rfl) rfl (ix1 0)).trans ?_
  refine Finset.sum_congr rfl fun d _ => congrArg v ?_
  funext a
  match a with
  | ⟨0, _⟩ => rfl
  | ⟨1, _⟩ => rfl

/-- The sum over the atom axis, at descriptor `d`, is the sum over the 2048 atoms of that descriptor's column:
    the inserted index is (0, n, d). -/
theorem sum_atoms (v : FVec Ideal S1x2048x64 .f32) (d : Fin 64) :
    multiReduction (F := Ideal) .add [1] S1x64 v 0x00000000#32 reduces_S1x2048x64_S1x64 (.inl rfl) rfl (ix2 0 d)
      = ∑ n : Fin 2048, v (ix3 0 n d) := by
  refine (Ideal.multiReduction_add_single v 0x00000000#32 reduces_S1x2048x64_S1x64 (.inl rfl) rfl (ix2 0 d)).trans ?_
  refine Finset.sum_congr rfl fun n _ => congrArg v ?_
  funext a
  match a with
  | ⟨0, _⟩ => rfl
  | ⟨1, _⟩ => rfl
  | ⟨2, _⟩ => rfl

/-- The weight row, given a unit atom axis and repeated over the atoms, reads at (0, n, d) the weight of `d`:
    the repetition reads the unit axis at 0, and the added unit axis does not move the row-major position. -/
theorem weight_at (x1 : Vec Ideal S1x64 .f32) (n : Fin 2048) (d : Fin 64) :
    broadcastTo S1x2048x64 (shapeCast S1x1x64 x1 shapeCasts_S1x64_S1x1x64) broadcasts_S1x1x64_S1x2048x64 (ix3 0 n d)
      = x1 (ix2 0 d) := by
  refine (broadcastTo_apply _ broadcasts_S1x1x64_S1x2048x64 (ix3 0 n d) (ix3 (0 : Fin 1) (0 : Fin 1) d) fun a => ?_).trans ?_
  · match a with
    | ⟨0, _⟩ => rfl
    | ⟨1, _⟩ => rfl
    | ⟨2, _⟩ => rfl
  · exact shapeCast_ab_1ab_apply x1 shapeCasts_S1x64_S1x1x64 0 0 d

/-- The body's value at index 0: the weighted descriptors summed over the atoms and then over the descriptors,
    over the constant 2048, plus the bias.  Division, the constant and the final sum are read entry by entry;
    the two sums are `sum_row` and `sum_atoms`; the product's second factor is `weight_at`. -/
theorem pay_apply (x0 : Vec Ideal S1x2048x64 .f32) (x1 : Vec Ideal S1x64 .f32) (x2 : Vec Ideal S1 .f32) :
    k0_pay1 (F := Ideal) x0 x1 x2 (ix1 0)
      = Ideal.div (∑ d : Fin 64, ∑ n : Fin 2048, x0 (ix3 0 n d) * x1 (ix2 0 d)) (Ideal.ofBits .f32 0x45000000#32)
        + x2 (ix1 0) := by
  unfold k0_pay1
  rw [addf_apply, divf_apply, broadcast_apply]
  refine congrArg (fun s => Ideal.div s (Ideal.ofBits .f32 0x45000000#32) + x2 (ix1 0)) ?_
  refine (sum_row _).trans (Finset.sum_congr rfl fun d _ => ?_)
  refine (sum_atoms _ d).trans (Finset.sum_congr rfl fun n _ => ?_)
  rw [mulf_apply, weight_at]

/-- The one-element result has only one index, so the same holds at any index of it. -/
theorem pay_any (x0 : Vec Ideal S1x2048x64 .f32) (x1 : Vec Ideal S1x64 .f32) (x2 : Vec Ideal S1 .f32) (y : S1.Idx) :
    k0_pay1 (F := Ideal) x0 x1 x2 y
      = Ideal.div (∑ d : Fin 64, ∑ n : Fin 2048, x0 (ix3 0 n d) * x1 (ix2 0 d)) (Ideal.ofBits .f32 0x45000000#32)
        + x2 (ix1 0) := by
  obtain ⟨a, rfl⟩ : ∃ a : Fin 1, y = ix1 a := ⟨y 0, eq_ix1 y⟩
  obtain rfl : a = 0 := Subsingleton.elim _ _
  exact pay_apply x0 x1 x2

end Payload

/-! ## The one grid point: every block is its whole array -/

section Blocks

variable (V : (c : Dev nD) → (b : Ref sig .tc) → Buf (Elt Ideal) ((c : Thread nD τ).loc b))

/-- The zero offsets of the body's whole-buffer loads and store, at ranks 1, 2 and 3. -/
theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- Every window's block index is zero on every axis, whatever the point, so its block starts at offset zero. -/
theorem off_descr (t : Fin cfg0.N) : (fun a => win0_0.index t a * main_arg0.ty.shape.size a) = fun _ => 0 :=
  funext fun a => by fin_cases a <;> rfl
theorem off_weight (t : Fin cfg0.N) : (fun a => win0_1.index t a * main_arg4.ty.shape.size a) = fun _ => 0 :=
  funext fun a => by fin_cases a <;> rfl
theorem off_bias (t : Fin cfg0.N) : (fun a => win0_2.index t a * main_arg5.ty.shape.size a) = fun _ => 0 :=
  funext fun a => by fin_cases a <;> rfl

/-- So each input block is the whole argument array: it starts at zero and has the array's own extents. -/
theorem descr_block (c : Dev nD) (t : Fin cfg0.N) : iblk0 (F := Ideal) V c 0 t = V c main_arg0 :=
  Memref.read_access_unit_zero (Elt Ideal) main_arg0 (off_descr t) (fun a => by rw [congrFun (off_descr t) a]; simp)
    (V c main_arg0)
theorem weight_block (c : Dev nD) (t : Fin cfg0.N) : iblk0 (F := Ideal) V c 1 t = V c main_arg4 :=
  Memref.read_access_unit_zero (Elt Ideal) main_arg4 (off_weight t) (fun a => by rw [congrFun (off_weight t) a]; simp)
    (V c main_arg4)
theorem bias_block (c : Dev nD) (t : Fin cfg0.N) : iblk0 (F := Ideal) V c 2 t = V c main_arg5 :=
  Memref.read_access_unit_zero (Elt Ideal) main_arg5 (off_bias t) (fun a => by rw [congrFun (off_bias t) a]; simp)
    (V c main_arg5)

/-- What a grid point writes back is the energy, read through that point's block of the result.  The body's one
    store covers the result's buffer, so the buffer holds the body's value; its loads read the whole input
    blocks, which are the argument arrays; and the energy is the same number at every index. -/
theorem flushed_energy (c : Dev nD) (t : Fin cfg0.N) :
    (dat0 (F := Ideal) V c).flushed 3 t
      = ((cfg0.win 3).blk t).view.read (Elt Ideal)
          (Cert.Spec.energy (V c main_arg0) (V c main_arg4) (V c main_arg5)) := by
  show (cfg0.win 3).cut (grid0.coords t) ((dat0 V c).after 3 t) = _
  rw [after0_3]
  unfold out0_3
  rw [View.canon_unit_zero zeros1]
  simp only [View.ld_unit_zero (S := S1x2048x64) zeros3, View.ld_unit_zero (S := S1x64) zeros2,
    View.ld_unit_zero (S := S1) zeros1]
  rw [descr_block, weight_block, bias_block]
  funext j
  exact pay_any _ _ _ _

/-- Every index of the one-element result lies in the one grid point's block: the block starts at zero and has
    extent one. -/
theorem covered (i : S1.Idx) : i ∈ ((cfg0.win 3).blk t0_0).view.set := by
  show i ∈ ((View.whole main_v0).slice (win0_3.rect t0_0)).set
  rw [View.set_slice_whole, Rect.mem_set_unit]
  intro a
  have h0 : (i 0 : Nat) < 1 := (i 0).isLt
  match a with
  | ⟨0, _⟩ =>
    show win0_3.index t0_0 0 * win0_3.size 0 ≤ (i 0 : Nat)
      ∧ (i 0 : Nat) < win0_3.index t0_0 0 * win0_3.size 0 + win0_3.xsize (grid0.coords t0_0) 0
    rw [show win0_3.index t0_0 0 * win0_3.size 0 = 0 from by decide +kernel,
      show win0_3.xsize (grid0.coords t0_0) 0 = 1 from by decide +kernel]
    omega

end Blocks

/-! ## The result array after the launch -/

/-- After the first launch the one-element result array holds the energy of the descriptors, the weights and the
    bias as the launch found them: the grid point's write-back is the energy through its block, and that block
    is the whole result. -/
theorem energy_final (V : (c : Dev nD) → (b : Ref sig .tc) → Buf (Elt Ideal) ((c : Thread nD τ).loc b)) (c : Dev nD) :
    (dat0 (F := Ideal) V c).arrAt 3 cfg0.N = Cert.Spec.energy (V c main_arg0) (V c main_arg4) (V c main_arg5) :=
  (dat0 (F := Ideal) V c).arrAt_eq_of_cover 3 _ (fun t _ => flushed_energy V c t)
    fun i => ⟨t0_0, flush0_3 t0_0, covered i⟩

end Cert.KernelIdeal.EnergyValue
end
-- ==== Proof.ForceValue.lean ====
/-
  The second launch's result array, index by index.

  The launch walks 64 points.  At point t its body reads rows 2048·t … 2048·t + 2047 of the pair axis of the
  derivative array x (all three Cartesian components, all 64 descriptors) and the whole weight row w, and writes
  the same rows of the output: at (c, p, 0) the number  0 − Σ_d x[c, p, d] · w[0, d].

  Three steps: the body's value at one index of its block as that sum; what a point writes back as a block of the
  one whole-array function `Cert.Spec.force x w`; every index of the output lies in the block of the point p / 2048,
  so the array ends holding that function.
-/
import proofs.«130377_j1975684956439_2_alg».proof.Proof.Gen.KernelIdeal.Frame
import proofs.«130377_j1975684956439_2_alg».proof.Proof.Spec
import Idealize.ShloMosaic.Lib.Pipeline.Value
import Idealize.ShloMosaic.PureOps.Ideal.Laws

noncomputable section

namespace Cert.KernelIdeal.ForceValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The body at one index of its block -/

/-- A [3, 2048] array viewed as [3, 2048, 1] reads, at (a, r, ·), the array at (a, r). -/
theorem cast_col {α : Type} (v : S3x2048.Idx → α) (h : S3x2048.ShapeCasts S3x2048x1) (a : Fin 3) (r : Fin 2048) (u : Fin 1) :
    shapeCast S3x2048x1 v h (ix3 a r u) = v (ix2 a r) :=
  shapeCast_apply v h _ _ (by
    have hu : u.val = 0 := by omega
    rw [Shape.rowMajor_val_three, Shape.rowMajor_val_two]
    show a.val * 2048 + r.val = (a.val * 2048 + r.val) * 1 + u.val
    rw [hu, Nat.mul_one, Nat.add_zero])

/-- The sum along the descriptor axis of a [3, 2048, 64] block, at (a, r): the sum over d of the block at (a, r, d).
    The sum starts from the additive neutral word, which contributes nothing. -/
theorem lane_sum (src : FVec Ideal S3x2048x64 .f32) (h : S3x2048x64.Reduces [2] S3x2048) (hφ : FKind.Formats .f32)
    (hacc : (0x00000000#32 : BitVec 32) = FKind.add.neutral .f32 hφ) (a : Fin 3) (r : Fin 2048) :
    multiReduction .add [2] S3x2048 src 0x00000000#32 h hφ hacc (ix2 a r) = ∑ d : Fin 64, src (ix3 a r d) := by
  refine (Ideal.multiReduction_add_single src 0x00000000#32 h hφ hacc (ix2 a r)).trans ?_
  show ∑ d : Fin 64, src (h.lift (ix2 a r) d) = _
  refine Finset.sum_congr rfl fun d _ => congrArg src ?_
  funext b
  match b with
  | ⟨0, _⟩ => rfl
  | ⟨1, _⟩ => rfl
  | ⟨2, _⟩ => rfl

/-- The weight row [1, 64], viewed as [1, 1, 64] and repeated over components and pairs, reads at (a, r, d) the
    weight of descriptor d. -/
theorem weight_bcast {α : Type} (w : S1x64.Idx → α) (h1 : S1x64.ShapeCasts S1x1x64) (h2 : S1x1x64.Broadcasts S3x2048x64)
    (a : Fin 3) (r : Fin 2048) (d : Fin 64) :
    broadcastTo S3x2048x64 (shapeCast S1x1x64 w h1) h2 (ix3 a r d) = w (ix2 0 d) := by
  refine (broadcastTo_apply (shapeCast S1x1x64 w h1) h2 (ix3 a r d) (ix3 (0 : Fin 1) (0 : Fin 1) d) fun ax => ?_).trans ?_
  · match ax with
    | ⟨0, _⟩ => rfl
    | ⟨1, _⟩ => rfl
    | ⟨2, _⟩ => rfl
  · exact shapeCast_apply w h1 _ _ (by
      rw [Shape.rowMajor_val_three, Shape.rowMajor_val_two]
      show 0 * 64 + d.val = (0 * 1 + 0) * 64 + d.val
      rfl)

/-- The body's value at the index (a, r, ·) of its block: zero minus the weighted sum of that row's descriptors. -/
theorem pay_apply (x0 : Vec Ideal S3x2048x64 .f32) (x1 : Vec Ideal S1x64 .f32) (a : Fin 3) (r : Fin 2048) (u : Fin 1) :
    k1_pay1 (F := Ideal) x0 x1 (ix3 a r u) = 0 - ∑ d : Fin 64, x0 (ix3 a r d) * x1 (ix2 0 d) := by
  unfold k1_pay1
  rw [subf_apply, broadcast_apply, cast_col]
  refine congr (congrArg _ Ideal.ofBits_zero_f32) ?_
  refine (lane_sum _ _ _ _ a r).trans ?_
  refine Finset.sum_congr rfl fun d _ => ?_
  rw [mulf_apply, shapeCast_self, weight_bcast]

/-! ## What a point writes back -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices of the three windows at point t, decided over the 64 points: the derivative block and the
    output block sit at (0, t, 0), the weight row at (0, 0). -/
theorem idx_facts : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0 :=
  (by decide +kernel : ∀ t : Fin grid1.N, _)

/-- If the derivative block's row (a, r) is the array's row (i₀, i₁), and the weight block is the weight row, the
    body's value at (a, r, ·) is the pair force at the output index i. -/
theorem pay_eq_force (x : (⟨3, ![3, 131072, 64]⟩ : Shape).Idx → EReal) (w : (⟨2, ![1, 64]⟩ : Shape).Idx → EReal)
    (x0 : Vec Ideal S3x2048x64 .f32) (x1 : Vec Ideal S1x64 .f32) (a : Fin 3) (r : Fin 2048) (u : Fin 1)
    (i : (⟨3, ![3, 131072, 1]⟩ : Shape).Idx)
    (hx0 : ∀ d : Fin 64, x0 (ix3 a r d) = x (ix3 (i 0) (i 1) d))
    (hx1 : ∀ d : Fin 64, x1 (ix2 0 d) = w (ix2 0 d)) :
    k1_pay1 (F := Ideal) x0 x1 (ix3 a r u) = Cert.Spec.force x w i := by
  rw [pay_apply]
  show _ = 0 - ∑ d : Fin 64, x (ix3 (i 0) (i 1) d) * w (ix2 0 d)
  refine congrArg _ (Finset.sum_congr rfl fun d _ => ?_)
  rw [hx0, hx1]

/-- WHAT POINT t WRITES BACK is block t of the pair forces of the arrays as the launch finds them: the derivative
    block read at (a, r, d) is the array at (a, 2048·t + r, d), the weight block is the weight row, and the output block's
    index (a, r, 0) is the array index (a, 2048·t + r, 0). -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Spec.force (V c main_v1) (V c main_arg4)) := by
  show (cfg1.win 2).cut (grid1.coords t) ((dat1 V c).after 2 t) = _
  rw [after1_2]
  unfold out1_2
  rw [View.canon_unit_zero zeros3]
  simp only [View.ld_unit_zero (S := S3x2048x64) zeros3, View.ld_unit_zero (S := S1x64) zeros2]
  obtain ⟨e00, e01, e02, e10, e11, e20, e21, e22⟩ := idx_facts t
  funext y
  obtain ⟨a, r, u, rfl⟩ : ∃ (a : Fin 3) (r : Fin 2048) (u : Fin 1), y = ix3 a r u := ⟨y 0, y 1, y 2, eq_ix3 y⟩
  show k1_pay1 (F := Ideal) (iblk1 V c 0 t) (iblk1 V c 1 t) (ix3 a r u)
    = Cert.Spec.force (V c main_v1) (V c main_arg4) (((cfg1.win 2).blk t).view.emb (ix3 a r u))
  refine pay_eq_force (V c main_v1) (V c main_arg4) _ _ a r u _ (fun d => ?_) (fun d => ?_)
  · show V c main_v1 (((cfg1.win 0).blk t).view.emb (ix3 a r d)) = V c main_v1 _
    refine congrArg _ (funext fun b => Fin.ext ?_)
    match b with
    | ⟨0, _⟩ =>
      show win1_0.index t (0 : Fin 3) * 3 + 1 * a.val = win1_2.index t (0 : Fin 3) * 3 + 1 * a.val
      omega
    | ⟨1, _⟩ =>
      show win1_0.index t (1 : Fin 3) * 2048 + 1 * r.val = win1_2.index t (1 : Fin 3) * 2048 + 1 * r.val
      omega
    | ⟨2, _⟩ =>
      show win1_0.index t (2 : Fin 3) * 64 + 1 * d.val = d.val
      omega
  · show V c main_arg4 (((cfg1.win 1).blk t).view.emb (ix2 0 d)) = V c main_arg4 _
    refine congrArg _ (funext fun b => Fin.ext ?_)
    match b with
    | ⟨0, _⟩ =>
      show win1_1.index t (0 : Fin 2) * 1 + 1 * 0 = 0
      omega
    | ⟨1, _⟩ =>
      show win1_1.index t (1 : Fin 2) * 64 + 1 * d.val = d.val
      omega

/-! ## The blocks cover the array -/

/-- An index of the output array is in point t's block iff each coordinate is in the block's range on its axis. -/
theorem mem_blk (t : Fin cfg1.N) (i : S3x131072x1.Idx) :
    i ∈ ((cfg1.win 2).blk t).view.set
      ↔ ∀ a : Fin 3, win1_2.index t a * S3x2048x1.size a ≤ (i a).val
          ∧ (i a).val < win1_2.index t a * S3x2048x1.size a + S3x2048x1.size a := by
  show i ∈ ((View.whole main_v2).slice (win1_2.rect t)).set ↔ _
  rw [View.set_slice_whole, Rect.mem_set_unit]
  exact Iff.rfl

/-- Pair p lies in the block of point p / 2048 (there are 131072 = 64 · 2048 pairs), on every component. -/
theorem covered (i : S3x131072x1.Idx) :
    ∃ t : Fin cfg1.N, (cfg1.win 2).flush t = true ∧ i ∈ ((cfg1.win 2).blk t).view.set := by
  have h0 : (i 0).val < 3 := (i 0).isLt
  have h1 : (i 1).val < 131072 := (i 1).isLt
  have h2 : (i 2).val < 1 := (i 2).isLt
  obtain ⟨t, ht⟩ : ∃ t : Fin cfg1.N, t.val = (i 1).val / 2048 :=
    ⟨⟨(i 1).val / 2048, by have hN : cfg1.N = 64 := N_1; omega⟩, rfl⟩
  obtain ⟨-, -, -, -, -, e20, e21, e22⟩ := idx_facts t
  refine ⟨t, flush1_2 t, ?_⟩
  rw [mem_blk]
  intro a
  match a with
  | ⟨0, _⟩ =>
    show win1_2.index t (0 : Fin 3) * 3 ≤ (i 0).val ∧ (i 0).val < win1_2.index t (0 : Fin 3) * 3 + 3
    omega
  | ⟨1, _⟩ =>
    show win1_2.index t (1 : Fin 3) * 2048 ≤ (i 1).val ∧ (i 1).val < win1_2.index t (1 : Fin 3) * 2048 + 2048
    omega
  | ⟨2, _⟩ =>
    show win1_2.index t (2 : Fin 3) * 1 ≤ (i 2).val ∧ (i 2).val < win1_2.index t (2 : Fin 3) * 1 + 1
    omega

/-- THE OUTPUT ARRAY after the second launch: the pair forces of the derivative array and the weight row as the
    launch finds them — every point writes its block of that one function, and the blocks cover the array. -/
theorem force_final (V : (c : Dev nD) → (b : Ref sig .tc) → Buf (Elt Ideal) ((c : Thread nD τ).loc b)) (c : Dev nD) :
    (dat1 (F := Ideal) V c).arrAt 2 cfg1.N = Cert.Spec.force (V c main_v1) (V c main_arg4) :=
  (dat1 (F := Ideal) V c).arrAt_eq_of_cover 2 (Cert.Spec.force (V c main_v1) (V c main_arg4))
    (fun t _ => flushed_eq V c t) covered

end Cert.KernelIdeal.ForceValue

end
-- ==== Proof.lean ====
/-
  The kernel computes, on the extended reals, what its jnp reference computes.

  Two results, from six arguments (the atoms' descriptors x : [1, 2048, 64], the pairs' descriptor derivatives
  dx : [1, 3, 131072, 64], two index lists of which only the neighbour list is read, the weights w : [1, 64], the
  bias b : [1]):

  * the energy, (Σ_{n,d} x[0,n,d]·w[0,d]) / 2048 + b[0].  The kernel's first launch sums the atoms first and then
    the descriptors; the reference sums over every index of the product at once, starting from zero.  Addition of
    extended reals is commutative and associative, so the arrangements agree; both divide by the same word
    (2048) and add the same bias.
  * the forces: for each Cartesian component c and pair p, f[c,p] = −Σ_d dx[0,c,p,d]·w[0,d] (the kernel's second
    launch, over 64 blocks of 2048 pairs, writes it as 0 − Σ; the reference negates 0 + Σ), then the pair rows
    scatter-added onto the atoms the neighbour list names.  That closing part — transpose, scatter-add from zero,
    transpose, a unit axis — is the same operations in both programs and is carried as one function, never opened.

  No law used needs finiteness, so the precondition is never opened.  The idealization rewrote nothing, so the
  sanctioned-idealization conjunct is trivial.

  The modules: Spec (the formulas and the one sum law), KernelRun (the kernel's run with every buffer named at the
  end), Boundary (what the chain of segments leaves in the two result buffers), EnergyValue and ForceValue (what
  each launch's output array holds), RefBridge (the reference's stages are the formulas), and this assembly.
-/
import proofs.«130377_j1975684956439_2_alg».proof.Defs
import proofs.«130377_j1975684956439_2_alg».proof.Proof.Gen.Kernel
import proofs.«130377_j1975684956439_2_alg».proof.Proof.Gen.Kernel.Frame
import proofs.«130377_j1975684956439_2_alg».proof.Proof.Gen.KernelIdeal
import proofs.«130377_j1975684956439_2_alg».proof.Proof.Gen.KernelIdeal.Frame
import proofs.«130377_j1975684956439_2_alg».proof.Proof.Gen.ReferenceIdeal
import proofs.«130377_j1975684956439_2_alg».proof.Proof.Gen.Pre_finite_inputs
import proofs.«130377_j1975684956439_2_alg».proof.Proof.Gen.ReferenceIdeal.Run
import proofs.«130377_j1975684956439_2_alg».proof.Proof.Gen.ReferenceIdeal.Read
import proofs.«130377_j1975684956439_2_alg».proof.Proof.Spec
import proofs.«130377_j1975684956439_2_alg».proof.Proof.KernelRun
import proofs.«130377_j1975684956439_2_alg».proof.Proof.Boundary
import proofs.«130377_j1975684956439_2_alg».proof.Proof.RefBridge
import proofs.«130377_j1975684956439_2_alg».proof.Proof.EnergyValue
import proofs.«130377_j1975684956439_2_alg».proof.Proof.ForceValue
import Idealize.ShloMosaic.Adequacy
import Idealize.ShloMosaic.Init

noncomputable section

namespace Cert.Proof

open Idealize.ShloMosaic Idealize.ShloMosaic.TcCoe Idealize.SL.Sem

/-- The first result buffer of the idealized kernel ends at the reference's energy stage of the launch memory:
    it is the first launch's output array, which holds the specification's energy of the three arrays the launch
    reads (the arguments themselves), and that is the reference's stage. -/
theorem kernel_energy (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v0)
      = Cert.ReferenceIdeal.Read.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) :=
  (Cert.KernelIdeal.Boundary.end_v0 m ρ c).trans
    ((Cert.KernelIdeal.EnergyValue.energy_final (Cert.KernelIdeal.Gen.V0 m ρ) c).trans (Cert.Bridge.energy_eq _ _ _).symm)

/-- The second result buffer of the idealized kernel ends at the reference's last stage of the launch memory:
    the closing host operations of the index list and the second launch's output array; that array holds the pair
    forces of the derivative array with its leading unit axis dropped; their scatter updates are the reference's;
    and the closing operations are the reference's own. -/
theorem kernel_force (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v9)
      = Cert.ReferenceIdeal.Read.val_main_v18 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  rw [Cert.KernelIdeal.Boundary.end_v9 m ρ c, Cert.KernelIdeal.ForceValue.force_final (Cert.KernelIdeal.Gen.V2 m ρ) c,
    Cert.KernelIdeal.Boundary.entry1_v1 m ρ c, Cert.KernelIdeal.Boundary.entry1_arg4 m ρ c]
  unfold Cert.KernelIdeal.Boundary.closing
  rw [Cert.Bridge.updates_force_eq]
  exact Cert.Bridge.scatterOnto_eq _ _ _

theorem frame_k : Cert.frame_Kernel := fun m ρ _ => Cert.Kernel.Gen.frame m ρ
theorem frame_ki : Cert.frame_KernelIdeal := fun m ρ _ => Cert.KernelIdeal.Gen.frame m ρ
/-- The reference has no launch: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the ideal instance both programs end with the same two results: the reference's stages of the arguments. -/
theorem algebraic : Cert.algebraic_KernelIdeal_ReferenceIdeal := by
  intro m ρ m' ρ' _ hagree
  refine ⟨fun c => Cert.ReferenceIdeal.Read.val_main_v6 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5)),
          fun c => Cert.ReferenceIdeal.Read.val_main_v18 (F := Ideal)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Boundary.run_results (F := Ideal) m ρ)
    obtain ⟨h0, h9, ha⟩ := h c
    exact ⟨h0.trans (kernel_energy m ρ c), h9.trans (kernel_force m ρ c), ha⟩
  · refine (θ_run Cert.ReferenceIdeal.defs _ _).mono (fun r h c => ?_) (Cert.ReferenceIdeal.Value.run (F := Ideal) m' ρ')
    obtain ⟨h6, h18, ha⟩ := h c
    obtain ⟨e0, e1, e2, e3, e4, e5⟩ := hagree c
    refine ⟨h6.trans ?_, h18.trans ?_, ha⟩
    · rw [Cert.ReferenceIdeal.Read.val_main_v6_eq, e0, e4, e5]
    · rw [Cert.ReferenceIdeal.Read.val_main_v18_eq, e1, e3, e4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
